-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 55
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128, .f32⟩
  | .hbm, ⟨54, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelBlock.lean ====
/-
  What one grid point of each of the two kernels computes, read at an entry (p, q) of its 5000 x 128 output block,
  on the extended reals. The body multiplies the block of neighbour sums by the per-row factor (a 5000 x 1 column
  broadcast along the lanes), contracts it with the left weights, contracts the block of node features with the right
  weights, adds the two products and the bias row (broadcast down the rows); the first kernel then takes the maximum
  with zero. Changes of float format are the identity here and a matrix product into a zero accumulator is the plain
  sum over the contracted axis, so entry (p, q) is
      (sum_k (S[p,k] * r[p]) * Wl[k,q]) + (sum_k x[p,k] * Wr[k,q]) + b[q]      (then max with 0 in the first kernel).
-/
import proofs.«178680_j42150809043596_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The operand indices of the block's matrix product -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into a zero accumulator, at entry (p, q): the sum over the 128 contracted positions. -/
theorem matmul_at {φ₁ φ₂ : FTy} (l : FVec Ideal S5000x128 φ₁) (r : FVec Ideal S128x128 φ₂) (p : Fin 5000) (q : Fin 128) :
    matmul (F := Ideal) dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The two broadcasts inside the block -/

/-- The per-row column broadcast along the lanes reads its row. -/
theorem column_along_lanes {α : Type} (v : S5000x1.Idx → α) (h : S5000x1.Broadcasts S5000x128) (p : Fin 5000) (q : Fin 128) :
    broadcastTo S5000x128 v h (ix2 p q) = v (ix2 p 0) :=
  broadcastTo_apply v h (ix2 p q) (ix2 p 0) (fun a => match a with
    | ⟨0, _⟩ => by show p.val = if (5000 : Nat) = 1 then 0 else p.val; rw [if_neg (by decide)]
    | ⟨1, _⟩ => by show (0 : Nat) = if (1 : Nat) = 1 then 0 else q.val; rw [if_pos rfl])

/-- The bias row broadcast down the rows reads its lane. -/
theorem row_down_rows {α : Type} (v : S1x128.Idx → α) (h : S1x128.Broadcasts S5000x128) (p : Fin 5000) (q : Fin 128) :
    broadcastTo S5000x128 v h (ix2 p q) = v (ix2 0 q) :=
  broadcastTo_apply v h (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-! ## The payloads at an entry -/

/-- The first kernel's stored value at entry (p, q) of the block. -/
theorem first_at (v0 : Vec Ideal S5000x128 .f32) (v2 : Vec Ideal S5000x1 .f32) (v7 : Vec Ideal S5000x128 .f32)
    (v9 v11 : Vec Ideal S128x128 .f32) (v16 : Vec Ideal S1x128 .f32) (p : Fin 5000) (q : Fin 128) :
    k0_pay1 (F := Ideal) v0 v2 v7 v9 v11 v16 (ix2 p q)
      = max (((∑ k : Fin 128, (v0 (ix2 p k) * v2 (ix2 p 0)) * v9 (ix2 k q)) + ∑ k : Fin 128, v7 (ix2 p k) * v11 (ix2 k q)) + v16 (ix2 0 q)) 0 := by
  unfold k0_pay1
  simp only [shapeCast_self]
  rw [maximumf_apply, addf_apply, addf_apply, matmul_at, matmul_at, row_down_rows, broadcast_apply]
  simp only [truncf_apply, mulf_apply, column_along_lanes]
  show max _ (Ideal.ofBits .f32 0x00000000#32) = _
  rw [Ideal.ofBits_zero_f32]

/-- The second kernel's stored value at entry (p, q) of the block. -/
theorem second_at (v0 : Vec Ideal S5000x128 .f32) (v2 : Vec Ideal S5000x1 .f32) (v7 : Vec Ideal S5000x128 .f32)
    (v10 v12 : Vec Ideal S128x128 .f32) (v17 : Vec Ideal S1x128 .f32) (p : Fin 5000) (q : Fin 128) :
    k1_pay1 (F := Ideal) v0 v2 v7 v10 v12 v17 (ix2 p q)
      = ((∑ k : Fin 128, (v0 (ix2 p k) * v2 (ix2 p 0)) * v10 (ix2 k q)) + ∑ k : Fin 128, v7 (ix2 p k) * v12 (ix2 k q)) + v17 (ix2 0 q) := by
  unfold k1_pay1
  simp only [shapeCast_self]
  rw [addf_apply, addf_apply, matmul_at, matmul_at, row_down_rows]
  simp only [truncf_apply, mulf_apply, column_along_lanes]

end Cert.KernelIdeal.Block

end
-- ==== Proof.LayerSpec.lean ====
/-
  One mean-aggregation layer, entry by entry, over the literal shapes of this graph (100000 nodes, 128 features).
  Given the aggregated neighbour sums `S`, the node features `x`, a per-node factor `r` (a column), two 128 x 128
  weight matrices and a bias row, entry (p, q) of the layer is

      (sum_k (S[p,k] * r[p]) * Wl[k,q])  +  (sum_k x[p,k] * Wr[k,q])  +  b[q],

  and the rectified layer is its maximum with zero. Each row p depends only on row p of `S` and `x` and on `r[p]`,
  which is why any tiling of the rows computes the same array.
-/
import Idealize.ShloMosaic.PureOps.Ideal
import Idealize.ShloMosaic.Lib.ValueIdx

noncomputable section

namespace Cert.SageLayer

open Idealize.ShloMosaic Idealize.ShloMosaic.ValueIdx

abbrev Nodes : Shape := ⟨2, ![100000, 128]⟩
abbrev NodeCol : Shape := ⟨2, ![100000, 1]⟩
abbrev Weights : Shape := ⟨2, ![128, 128]⟩
abbrev BiasRow : Shape := ⟨2, ![1, 128]⟩

/-- Entry (p, q) of the layer before the rectifier. -/
def preAt (S x : Nodes.Idx → EReal) (r : NodeCol.Idx → EReal) (Wl Wr : Weights.Idx → EReal) (b : BiasRow.Idx → EReal)
    (p : Fin 100000) (q : Fin 128) : EReal :=
  ((∑ k : Fin 128, (S (ix2 p k) * r (ix2 p 0)) * Wl (ix2 k q)) + ∑ k : Fin 128, x (ix2 p k) * Wr (ix2 k q)) + b (ix2 0 q)

/-- The layer before the rectifier, as one array. -/
def pre (S x : Nodes.Idx → EReal) (r : NodeCol.Idx → EReal) (Wl Wr : Weights.Idx → EReal) (b : BiasRow.Idx → EReal) :
    Nodes.Idx → EReal :=
  fun i => preAt S x r Wl Wr b (i 0) (i 1)

/-- The rectified layer, as one array. -/
def act (S x : Nodes.Idx → EReal) (r : NodeCol.Idx → EReal) (Wl Wr : Weights.Idx → EReal) (b : BiasRow.Idx → EReal) :
    Nodes.Idx → EReal :=
  fun i => max (preAt S x r Wl Wr b (i 0) (i 1)) 0

/-- The per-node column of reciprocals of a per-node vector `d`: row p holds `1 / d[p]`. -/
def recipCol (d : (⟨1, ![100000]⟩ : Shape).Idx → EReal) : NodeCol.Idx → EReal :=
  fun i => Ideal.div 1 (d (ix1 (i 0)))

/-- A bias vector as a one-row matrix: lane q holds `b[q]`. -/
def biasRow (b : (⟨1, ![128]⟩ : Shape).Idx → EReal) : BiasRow.Idx → EReal :=
  fun i => b (ix1 (i 1))

end Cert.SageLayer

end
-- ==== Proof.KernelArray.lean ====
/-
  From blocks to arrays, for each of the two kernels, at ANY contents `V` the region may be entered with. Each grid point
  `t` of 20 stages rows `5000 t … 5000 t + 4999` of the neighbour sums, of the node features and of the per-node column,
  all of both weight matrices and the bias row, and writes back the same rows of the result. A row of the layer depends
  only on that row of the inputs, so what point `t` writes IS block `t` of the whole-array layer (`flushed_…`); the 20
  blocks tile the 100000 rows (`cover_…`: row r lies in block r / 5000); hence the result array after the region is the
  layer of the entry contents (`array_…`).
-/
import proofs.«178680_j42150809043596_2_alg».proof.Proof.Gen.KernelIdeal.Frame
import proofs.«178680_j42150809043596_2_alg».proof.Proof.KernelBlock
import proofs.«178680_j42150809043596_2_alg».proof.Proof.LayerSpec
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first kernel: its result array as one function of the arrays it finds -/

/-- What the first kernel's result array ends holding: the rectified layer of the arrays the region finds at entry. -/
abbrev first (c : Dev nD) : S100000x128.Idx → EReal :=
  Cert.SageLayer.act (V c main_v22) (V c main_arg0) (V c main_v12) (V c main_arg2) (V c main_arg3) (V c main_v23)

/-- The printed index maps, decided over the 20 grid points: the three row-tiled inputs and the output sit at row block
    `t`, the weights and the bias at their one block. -/
theorem index_first : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Block `t` of the neighbour sums is rows `5000 t … 5000 t + 4999` of the array. -/
theorem sums_first (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_v22 : S100000x128.Idx → EReal) k := by
  obtain ⟨e0, e1, -⟩ := index_first t
  unfold iblk0
  rw [View.read_apply]
  show V c main_v22 _ = V c main_v22 _
  refine congrArg (V c main_v22) (funext fun a => Fin.ext ?_)
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- Block `t` of the node features is the same rows of theirs. -/
theorem feats_first (c : Dev nD) (t : Fin cfg0.N) (y : S5000x128.Idx) (k : S100000x128.Idx)
    (hk0 : (k 0).val = 5000 * t.val + (y 0).val) (hk1 : (k 1).val = (y 1).val) :
    (iblk0 V c 1 t : Vec Ideal S5000x128 .f32) y = (V c main_arg0 : S100000x128.Idx → EReal) k := by
  obtain ⟨-, -, e0, e1, -⟩ := index_first t
  unfold iblk0
  rw [View.read_apply]
  show V c main_arg0 _ = V c main_arg0 _
  refine congrArg (V c main_arg0) (funext fun a => Fin.ext ?_)
  match a with
  | ⟨0, _⟩ => show win0_1.index t 0 * 5000 + 1 * (y 0).val = (k 0).val; rw [e0, hk0]; omega
  | ⟨1, _⟩ => show win0_1.index t 1 * 128 + 1 * (y 1).val = (k 1).val; rw [e1, hk1]; omega

/-- Block `t` of the per-node column is the same rows of it. -/
theorem factor_first (c : Dev nD) (t : Fin cfg0.N) (y : S5000x1.Idx) (k : S100000x1.Idx)
    (hk0 : (k 0).val = 5000 * t.val + (y 0).val) (hk1 : (k 1).val = (y 1).val) :
    (iblk0 V c 2 t : Vec Ideal S5000x1 .f32) y = (V c main_v12 : S100000x1.Idx → EReal) k := by
  obtain ⟨-, -, -, -, e0, e1, -⟩ := index_first t
  unfold iblk0
  rw [View.read_apply]
  show V c main_v12 _ = V c main_v12 _
  refine congrArg (V c main_v12) (funext fun a => Fin.ext ?_)
  match a with
  | ⟨0, _⟩ => show win0_2.index t 0 * 5000 + 1 * (y 0).val = (k 0).val; rw [e0, hk0]; omega
  | ⟨1, _⟩ => show win0_2.index t 1 * 1 + 1 * (y 1).val = (k 1).val; rw [e1, hk1]; omega

/-- The left weights' one block is the whole matrix. -/
theorem left_first (c : Dev nD) (t : Fin cfg0.N) (y : S128x128.Idx) :
    (iblk0 V c 3 t : Vec Ideal S128x128 .f32) y = (V c main_arg2 : S128x128.Idx → EReal) y := by
  obtain ⟨-, -, -, -, -, -, e0, e1, -⟩ := index_first t
  unfold iblk0
  rw [View.read_apply]
  show V c main_arg2 _ = V c main_arg2 _
  refine congrArg (V c main_arg2) (funext fun a => Fin.ext ?_)
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The right weights' one block is the whole matrix. -/
theorem right_first (c : Dev nD) (t : Fin cfg0.N) (y : S128x128.Idx) :
    (iblk0 V c 4 t : Vec Ideal S128x128 .f32) y = (V c main_arg3 : S128x128.Idx → EReal) y := by
  obtain ⟨-, -, -, -, -, -, -, -, e0, e1, -⟩ := index_first t
  unfold iblk0
  rw [View.read_apply]
  show V c main_arg3 _ = V c main_arg3 _
  refine congrArg (V c main_arg3) (funext fun a => Fin.ext ?_)
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- The bias row's one block is the whole row. -/
theorem bias_first (c : Dev nD) (t : Fin cfg0.N) (y : S1x128.Idx) :
    (iblk0 V c 5 t : Vec Ideal S1x128 .f32) y = (V c main_v23 : S1x128.Idx → EReal) y := by
  obtain ⟨-, -, -, -, -, -, -, -, -, -, e0, e1, -⟩ := index_first t
  unfold iblk0
  rw [View.read_apply]
  show V c main_v23 _ = V c main_v23 _
  refine congrArg (V c main_v23) (funext fun a => Fin.ext ?_)
  match a with
  | ⟨0, _⟩ => show win0_5.index t 0 * 1 + 1 * (y 0).val = (y 0).val; rw [e0]; omega
  | ⟨1, _⟩ => show win0_5.index t 1 * 128 + 1 * (y 1).val = (y 1).val; rw [e1]; omega

/-- WHAT POINT `t` WRITES BACK is block `t` of the layer: rows `5000 t …` of the output depend on exactly those rows of the
    sums, the features and the column, and on all of the weights and the bias. -/
theorem flushed_first (c : Dev nD) (t : Fin cfg0.N) :
    (dat0 V c).flushed 6 t = ((cfg0.win 6).blk t).view.read (Elt Ideal) (first V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, -, -, e0, e1⟩ := index_first t
  have hN : cfg0.N = 20 := N_0
  have hP : 5000 * t.val + p.val < 100000 := by have := t.isLt; have := p.isLt; omega
  have hE : ((cfg0.win 6).blk t).view.emb (ix2 p q) = ix2 (⟨5000 * t.val + p.val, hP⟩ : Fin 100000) q := by
    funext a; apply Fin.ext
    match a with
    | ⟨0, _⟩ => show win0_6.index t 0 * 5000 + 1 * p.val = 5000 * t.val + p.val; rw [e0]; omega
    | ⟨1, _⟩ => show win0_6.index t 1 * 128 + 1 * q.val = q.val; rw [e1]; omega
  refine (Block.first_at (iblk0 V c 0 t) (iblk0 V c 2 t) (iblk0 V c 1 t) (iblk0 V c 3 t) (iblk0 V c 4 t) (iblk0 V c 5 t) p q).trans ?_
  show _ = first V c (((cfg0.win 6).blk t).view.emb (ix2 p q))
  rw [hE]
  show _ = max (Cert.SageLayer.preAt (V c main_v22) (V c main_arg0) (V c main_v12) (V c main_arg2) (V c main_arg3) (V c main_v23) ⟨5000 * t.val + p.val, hP⟩ q) 0
  unfold Cert.SageLayer.preAt
  refine congrArg (max · (0 : EReal)) ?_
  refine congrArg₂ (· + ·) (congrArg₂ (· + ·) (Finset.sum_congr rfl fun k _ => ?_) (Finset.sum_congr rfl fun k _ => ?_)) ?_
  · exact congrArg₂ (· * ·) (congrArg₂ (· * ·)
      (sums_first V c t (ix2 p k) (ix2 (⟨5000 * t.val + p.val, hP⟩ : Fin 100000) k) rfl rfl)
      (factor_first V c t (ix2 p 0) (ix2 (⟨5000 * t.val + p.val, hP⟩ : Fin 100000) 0) rfl rfl))
      (left_first V c t (ix2 k q))
  · exact congrArg₂ (· * ·)
      (feats_first V c t (ix2 p k) (ix2 (⟨5000 * t.val + p.val, hP⟩ : Fin 100000) k) rfl rfl)
      (right_first V c t (ix2 k q))
  · exact bias_first V c t (ix2 0 q)

/-- An index of the array is in point `t`'s block iff each coordinate is in the block's range on its axis. -/
theorem mem_block_first (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24).slice (win0_6.rect t)).set ↔ _
  rw [View.set_slice_whole, Rect.mem_set_unit]
  exact Iff.rfl

/-- The 20 row blocks cover the array: row `r` is in block `r / 5000`. -/
theorem cover_first (i : S100000x128.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 128 := (i 1).isLt
  refine ⟨⟨(i 0).val / 5000, by rw [hN]; omega⟩, flush0_6 _, ?_⟩
  rw [mem_block_first]
  obtain ⟨-, -, -, -, -, -, -, -, -, -, -, -, e0, e1⟩ := index_first ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e1]; omega

/-- THE ARRAY after the region: the rectified layer of what the region found. -/
theorem array_first (c : Dev nD) : (dat0 V c).arrAt 6 cfg0.N = first V c :=
  (dat0 V c).arrAt_eq_of_cover 6 (first V c) (fun t _ => flushed_first V c t) (cover_first)

/-! ## The second kernel: its result array as one function of the arrays it finds -/

/-- What the second kernel's result array ends holding: the unrectified layer of the arrays the region finds at entry. -/
abbrev second (c : Dev nD) : S100000x128.Idx → EReal :=
  Cert.SageLayer.pre (V c main_v34) (V c main_v24) (V c main_v12) (V c main_arg5) (V c main_arg6) (V c main_v35)

/-- The printed index maps, decided over the 20 grid points: the three row-tiled inputs and the output sit at row block
    `t`, the weights and the bias at their one block. -/
theorem index_second : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Block `t` of the neighbour sums is rows `5000 t … 5000 t + 4999` of the array. -/
theorem sums_second (c : Dev nD) (t : Fin cfg1.N) (y : S5000x128.Idx) (k : S100000x128.Idx)
    (hk0 : (k 0).val = 5000 * t.val + (y 0).val) (hk1 : (k 1).val = (y 1).val) :
    (iblk1 V c 0 t : Vec Ideal S5000x128 .f32) y = (V c main_v34 : S100000x128.Idx → EReal) k := by
  obtain ⟨e0, e1, -⟩ := index_second t
  unfold iblk1
  rw [View.read_apply]
  show V c main_v34 _ = V c main_v34 _
  refine congrArg (V c main_v34) (funext fun a => Fin.ext ?_)
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

/-- Block `t` of the node features is the same rows of theirs. -/
theorem feats_second (c : Dev nD) (t : Fin cfg1.N) (y : S5000x128.Idx) (k : S100000x128.Idx)
    (hk0 : (k 0).val = 5000 * t.val + (y 0).val) (hk1 : (k 1).val = (y 1).val) :
    (iblk1 V c 1 t : Vec Ideal S5000x128 .f32) y = (V c main_v24 : S100000x128.Idx → EReal) k := by
  obtain ⟨-, -, e0, e1, -⟩ := index_second t
  unfold iblk1
  rw [View.read_apply]
  show V c main_v24 _ = V c main_v24 _
  refine congrArg (V c main_v24) (funext fun a => Fin.ext ?_)
  match a with
  | ⟨0, _⟩ => show win1_1.index t 0 * 5000 + 1 * (y 0).val = (k 0).val; rw [e0, hk0]; omega
  | ⟨1, _⟩ => show win1_1.index t 1 * 128 + 1 * (y 1).val = (k 1).val; rw [e1, hk1]; omega

/-- Block `t` of the per-node column is the same rows of it. -/
theorem factor_second (c : Dev nD) (t : Fin cfg1.N) (y : S5000x1.Idx) (k : S100000x1.Idx)
    (hk0 : (k 0).val = 5000 * t.val + (y 0).val) (hk1 : (k 1).val = (y 1).val) :
    (iblk1 V c 2 t : Vec Ideal S5000x1 .f32) y = (V c main_v12 : S100000x1.Idx → EReal) k := by
  obtain ⟨-, -, -, -, e0, e1, -⟩ := index_second t
  unfold iblk1
  rw [View.read_apply]
  show V c main_v12 _ = V c main_v12 _
  refine congrArg (V c main_v12) (funext fun a => Fin.ext ?_)
  match a with
  | ⟨0, _⟩ => show win1_2.index t 0 * 5000 + 1 * (y 0).val = (k 0).val; rw [e0, hk0]; omega
  | ⟨1, _⟩ => show win1_2.index t 1 * 1 + 1 * (y 1).val = (k 1).val; rw [e1, hk1]; omega

/-- The left weights' one block is the whole matrix. -/
theorem left_second (c : Dev nD) (t : Fin cfg1.N) (y : S128x128.Idx) :
    (iblk1 V c 3 t : Vec Ideal S128x128 .f32) y = (V c main_arg5 : S128x128.Idx → EReal) y := by
  obtain ⟨-, -, -, -, -, -, e0, e1, -⟩ := index_second t
  unfold iblk1
  rw [View.read_apply]
  show V c main_arg5 _ = V c main_arg5 _
  refine congrArg (V c main_arg5) (funext fun a => Fin.ext ?_)
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- The right weights' one block is the whole matrix. -/
theorem right_second (c : Dev nD) (t : Fin cfg1.N) (y : S128x128.Idx) :
    (iblk1 V c 4 t : Vec Ideal S128x128 .f32) y = (V c main_arg6 : S128x128.Idx → EReal) y := by
  obtain ⟨-, -, -, -, -, -, -, -, e0, e1, -⟩ := index_second t
  unfold iblk1
  rw [View.read_apply]
  show V c main_arg6 _ = V c main_arg6 _
  refine congrArg (V c main_arg6) (funext fun a => Fin.ext ?_)
  match a with
  | ⟨0, _⟩ => show win1_4.index t 0 * 128 + 1 * (y 0).val = (y 0).val; rw [e0]; omega
  | ⟨1, _⟩ => show win1_4.index t 1 * 128 + 1 * (y 1).val = (y 1).val; rw [e1]; omega

/-- The bias row's one block is the whole row. -/
theorem bias_second (c : Dev nD) (t : Fin cfg1.N) (y : S1x128.Idx) :
    (iblk1 V c 5 t : Vec Ideal S1x128 .f32) y = (V c main_v35 : S1x128.Idx → EReal) y := by
  obtain ⟨-, -, -, -, -, -, -, -, -, -, e0, e1, -⟩ := index_second t
  unfold iblk1
  rw [View.read_apply]
  show V c main_v35 _ = V c main_v35 _
  refine congrArg (V c main_v35) (funext fun a => Fin.ext ?_)
  match a with
  | ⟨0, _⟩ => show win1_5.index t 0 * 1 + 1 * (y 0).val = (y 0).val; rw [e0]; omega
  | ⟨1, _⟩ => show win1_5.index t 1 * 128 + 1 * (y 1).val = (y 1).val; rw [e1]; omega

/-- WHAT POINT `t` WRITES BACK is block `t` of the layer: rows `5000 t …` of the output depend on exactly those rows of the
    sums, the features and the column, and on all of the weights and the bias. -/
theorem flushed_second (c : Dev nD) (t : Fin cfg1.N) :
    (dat1 V c).flushed 6 t = ((cfg1.win 6).blk t).view.read (Elt Ideal) (second V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, -, -, e0, e1⟩ := index_second t
  have hN : cfg1.N = 20 := N_1
  have hP : 5000 * t.val + p.val < 100000 := by have := t.isLt; have := p.isLt; omega
  have hE : ((cfg1.win 6).blk t).view.emb (ix2 p q) = ix2 (⟨5000 * t.val + p.val, hP⟩ : Fin 100000) q := by
    funext a; apply Fin.ext
    match a with
    | ⟨0, _⟩ => show win1_6.index t 0 * 5000 + 1 * p.val = 5000 * t.val + p.val; rw [e0]; omega
    | ⟨1, _⟩ => show win1_6.index t 1 * 128 + 1 * q.val = q.val; rw [e1]; omega
  refine (Block.second_at (iblk1 V c 0 t) (iblk1 V c 2 t) (iblk1 V c 1 t) (iblk1 V c 3 t) (iblk1 V c 4 t) (iblk1 V c 5 t) p q).trans ?_
  show _ = second V c (((cfg1.win 6).blk t).view.emb (ix2 p q))
  rw [hE]
  show _ = Cert.SageLayer.preAt (V c main_v34) (V c main_v24) (V c main_v12) (V c main_arg5) (V c main_arg6) (V c main_v35) ⟨5000 * t.val + p.val, hP⟩ q
  unfold Cert.SageLayer.preAt

  refine congrArg₂ (· + ·) (congrArg₂ (· + ·) (Finset.sum_congr rfl fun k _ => ?_) (Finset.sum_congr rfl fun k _ => ?_)) ?_
  · exact congrArg₂ (· * ·) (congrArg₂ (· * ·)
      (sums_second V c t (ix2 p k) (ix2 (⟨5000 * t.val + p.val, hP⟩ : Fin 100000) k) rfl rfl)
      (factor_second V c t (ix2 p 0) (ix2 (⟨5000 * t.val + p.val, hP⟩ : Fin 100000) 0) rfl rfl))
      (left_second V c t (ix2 k q))
  · exact congrArg₂ (· * ·)
      (feats_second V c t (ix2 p k) (ix2 (⟨5000 * t.val + p.val, hP⟩ : Fin 100000) k) rfl rfl)
      (right_second V c t (ix2 k q))
  · exact bias_second V c t (ix2 0 q)

/-- An index of the array is in point `t`'s block iff each coordinate is in the block's range on its axis. -/
theorem mem_block_second (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v36).slice (win1_6.rect t)).set ↔ _
  rw [View.set_slice_whole, Rect.mem_set_unit]
  exact Iff.rfl

/-- The 20 row blocks cover the array: row `r` is in block `r / 5000`. -/
theorem cover_second (i : S100000x128.Idx) :
    ∃ t : Fin cfg1.N, (cfg1.win 6).flush t = true ∧ i ∈ ((cfg1.win 6).blk t).view.set := by
  have hN : cfg1.N = 20 := N_1
  have hi0 : (i 0).val < 100000 := (i 0).isLt
  have hi1 : (i 1).val < 128 := (i 1).isLt
  refine ⟨⟨(i 0).val / 5000, by rw [hN]; omega⟩, flush1_6 _, ?_⟩
  rw [mem_block_second]
  obtain ⟨-, -, -, -, -, -, -, -, -, -, -, -, e0, e1⟩ := index_second ⟨(i 0).val / 5000, by rw [hN]; omega⟩
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 128 ≤ (i 1).val ∧ (i 1).val < win1_6.index _ (1 : Fin 2) * 128 + 128
    rw [e1]; omega

/-- THE ARRAY after the region: the unrectified layer of what the region found. -/
theorem array_second (c : Dev nD) : (dat1 V c).arrAt 6 cfg1.N = second V c :=
  (dat1 V c).arrAt_eq_of_cover 6 (second V c) (fun t _ => flushed_second V c t) (cover_second)

end Cert.KernelIdeal.Whole

end
-- ==== Proof.HostStretch.lean ====
/-
  The host operations around the two kernels, as a handful of named functions, and what each buffer the kernels read
  holds after a stretch of them, from ANY contents `W` the stretch starts at.
  From the edge list: the source and destination node of each edge (`srcOf`, `dstOf`); a node's in-degree, a scatter-add
  of ones over the destinations (`degOf`); the per-node column `1 / max(deg, 1)` (`invOf`). From a feature array: the
  sum over each node's incoming edges of the source rows (`aggOf`: a gather at the sources, negative indices wrapped,
  then a scatter-add at the destinations). The bias as a row (`biasOf`).
  The first stretch computes all of them from the arguments; the second recomputes only the aggregation, of the first
  kernel's result, with the same sources and destinations, and the second bias row.
-/
import proofs.«178680_j42150809043596_2_alg».proof.Proof.Gen.KernelIdeal.Launch
import Idealize.ShloMosaic.Lib.StableHlo.Run
import Idealize.ShloMosaic.PureOps.Ideal

noncomputable section

namespace Cert.KernelIdeal.Stretch

open Cert.KernelIdeal Cert.KernelIdeal.Gen Idealize.ShloMosaic Idealize.ShloMosaic.TcCoe Idealize.SL.Sem
open Idealize.ShloMosaic.StableHlo

/-- The source node of each edge: row 0 of the edge list. -/
def srcOf (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The destination node of each edge: row 1 of the edge list. -/
def dstOf (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The constant-one vector over the nodes. -/
def ones : FVec Ideal S100000 .f32 :=
  broadcastInDim S100000 ![] bcast_S_S100000 (constant (F := Ideal) S_ .f32 0x3F800000#32)

/-- A node's in-degree: ones scatter-added at the destinations into zeros. -/
def degOf (dst : (⟨S1600000, .i32⟩ : BufTy).Contents (Elt Ideal)) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The in-degree clamped below at one. -/
def clampOf (dst : (⟨S1600000, .i32⟩ : BufTy).Contents (Elt Ideal)) : FVec Ideal S100000 .f32 :=
  maximumf (degOf dst) ones

/-- The per-node column `1 / max(deg, 1)`. -/
def invOf (dst : (⟨S1600000, .i32⟩ : BufTy).Contents (Elt Ideal)) : FVec Ideal S100000x1 .f32 :=
  shapeCast _ (Host.divf (F := Ideal) ones (clampOf dst)) shapeCasts_S100000_S100000x1

/-- The gather's index column: the sources, a negative one wrapped by the node count. -/
def gatherIdx (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The neighbour sums of a feature array: its rows gathered at the sources and scatter-added at the destinations. -/
def aggOf (x : FVec Ideal S100000x128 .f32) (src dst : (⟨S1600000, .i32⟩ : BufTy).Contents (Elt Ideal)) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x (gatherIdx src))

/-- A bias vector as a one-row matrix. -/
def biasOf (b : FVec Ideal S128 .f32) : FVec Ideal S1x128 .f32 :=
  shapeCast _ b shapeCasts_S128_S1x128

variable (W : Valuation τ sig (Elt Ideal))

/-! ## After the first stretch -/

theorem first_src : after (hostOps0 (F := Ideal)) W (Proc.devRef .tc main_v1) = srcOf (W (Proc.devRef .tc main_arg1)) := by
  after_results; rfl
theorem first_dst : after (hostOps0 (F := Ideal)) W (Proc.devRef .tc main_v3) = dstOf (W (Proc.devRef .tc main_arg1)) := by
  after_results; rfl
theorem first_inv : after (hostOps0 (F := Ideal)) W (Proc.devRef .tc main_v12) = invOf (dstOf (W (Proc.devRef .tc main_arg1))) := by
  after_results; rfl
theorem first_agg : after (hostOps0 (F := Ideal)) W (Proc.devRef .tc main_v22)
    = aggOf (W (Proc.devRef .tc main_arg0)) (srcOf (W (Proc.devRef .tc main_arg1))) (dstOf (W (Proc.devRef .tc main_arg1))) := by
  after_results_simp <;> rfl
theorem first_bias : after (hostOps0 (F := Ideal)) W (Proc.devRef .tc main_v23) = biasOf (W (Proc.devRef .tc main_arg4)) := by
  after_results; rfl
theorem first_x : after (hostOps0 (F := Ideal)) W (Proc.devRef .tc main_arg0) = W (Proc.devRef .tc main_arg0) := by
  after_results
theorem first_wl : after (hostOps0 (F := Ideal)) W (Proc.devRef .tc main_arg2) = W (Proc.devRef .tc main_arg2) := by
  after_results
theorem first_wr : after (hostOps0 (F := Ideal)) W (Proc.devRef .tc main_arg3) = W (Proc.devRef .tc main_arg3) := by
  after_results
theorem first_wl2 : after (hostOps0 (F := Ideal)) W (Proc.devRef .tc main_arg5) = W (Proc.devRef .tc main_arg5) := by
  after_results
theorem first_wr2 : after (hostOps0 (F := Ideal)) W (Proc.devRef .tc main_arg6) = W (Proc.devRef .tc main_arg6) := by
  after_results
theorem first_b2 : after (hostOps0 (F := Ideal)) W (Proc.devRef .tc main_arg7) = W (Proc.devRef .tc main_arg7) := by
  after_results

/-! ## After the second stretch -/

theorem second_agg : after (hostOps1 (F := Ideal)) W (Proc.devRef .tc main_v34)
    = aggOf (W (Proc.devRef .tc main_v24)) (W (Proc.devRef .tc main_v1)) (W (Proc.devRef .tc main_v3)) := by
  after_results; rfl
theorem second_bias : after (hostOps1 (F := Ideal)) W (Proc.devRef .tc main_v35) = biasOf (W (Proc.devRef .tc main_arg7)) := by
  after_results; rfl
theorem second_x : after (hostOps1 (F := Ideal)) W (Proc.devRef .tc main_v24) = W (Proc.devRef .tc main_v24) := by
  after_results
theorem second_inv : after (hostOps1 (F := Ideal)) W (Proc.devRef .tc main_v12) = W (Proc.devRef .tc main_v12) := by
  after_results
theorem second_wl : after (hostOps1 (F := Ideal)) W (Proc.devRef .tc main_arg5) = W (Proc.devRef .tc main_arg5) := by
  after_results
theorem second_wr : after (hostOps1 (F := Ideal)) W (Proc.devRef .tc main_arg6) = W (Proc.devRef .tc main_arg6) := by
  after_results

end Cert.KernelIdeal.Stretch

end
-- ==== Proof.KernelRun.lean ====
/-
  The kernel program's run with its result NAMED, and that result as one function of the arguments.
  The program is: a stretch of host operations, the first kernel, a second stretch, the second kernel. The run is the
  launch over those four segments (the same launch that shows the arguments unchanged), read once more at the result
  buffer: it ends holding what the second kernel's write-backs leave. Walking back through the segments: the second
  kernel leaves the unrectified layer of what the second stretch hands it; the second stretch aggregates the first
  kernel's result over the same edges and leaves every other input as it was; the first kernel leaves the rectified layer
  of what the first stretch computes from the arguments. Hence

      result = layer(agg(h), h, 1/max(deg,1), Wl2, Wr2, b2),   h = relu-layer(agg(x), x, 1/max(deg,1), Wl1, Wr1, b1).
-/
import proofs.«178680_j42150809043596_2_alg».proof.Proof.Gen.KernelIdeal.Frame
import proofs.«178680_j42150809043596_2_alg».proof.Proof.KernelArray
import proofs.«178680_j42150809043596_2_alg».proof.Proof.HostStretch

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at what the last segment boundary holds there, the
    arguments unchanged. -/
theorem run_named : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Launch

/-! ## The result as a function of the arguments -/

section Value

open Cert.KernelIdeal.Stretch

variable (m : (ℓ : Loc nD τ sig) → Buf (Elt Ideal) ℓ) (ρ : Dev nD → PrngReg)

/-- The hidden features: the rectified layer of the arguments. -/
def hidden (c : Dev nD) : S100000x128.Idx → EReal :=
  Cert.SageLayer.act
    (aggOf (m ((c.tc : Thread nD τ).loc main_arg0)) (srcOf (m ((c.tc : Thread nD τ).loc main_arg1))) (dstOf (m ((c.tc : Thread nD τ).loc main_arg1))))
    (m ((c.tc : Thread nD τ).loc main_arg0)) (invOf (dstOf (m ((c.tc : Thread nD τ).loc main_arg1))))
    (m ((c.tc : Thread nD τ).loc main_arg2)) (m ((c.tc : Thread nD τ).loc main_arg3)) (biasOf (m ((c.tc : Thread nD τ).loc main_arg4)))

/-- The output: the unrectified layer of the hidden features. -/
def output (c : Dev nD) : S100000x128.Idx → EReal :=
  Cert.SageLayer.pre
    (aggOf (hidden m c) (srcOf (m ((c.tc : Thread nD τ).loc main_arg1))) (dstOf (m ((c.tc : Thread nD τ).loc main_arg1))))
    (hidden m c) (invOf (dstOf (m ((c.tc : Thread nD τ).loc main_arg1))))
    (m ((c.tc : Thread nD τ).loc main_arg5)) (m ((c.tc : Thread nD τ).loc main_arg6)) (biasOf (m ((c.tc : Thread nD τ).loc main_arg7)))

/-- What the first kernel leaves: the hidden features. -/
theorem first_leaves (c : Dev nD) : W2 m ρ c (Proc.devRef .tc main_v24) = hidden m c := by
  refine (W2_arr m ρ c 6).trans ((array_first (V1 m ρ) c).trans ?_)
  have e22 : V1 m ρ c main_v22 = aggOf (m ((c.tc : Thread nD τ).loc main_arg0)) (srcOf (m ((c.tc : Thread nD τ).loc main_arg1))) (dstOf (m ((c.tc : Thread nD τ).loc main_arg1))) :=
    first_agg (W0 m ρ c)
  have e0 : V1 m ρ c main_arg0 = m ((c.tc : Thread nD τ).loc main_arg0) := first_x (W0 m ρ c)
  have e12 : V1 m ρ c main_v12 = invOf (dstOf (m ((c.tc : Thread nD τ).loc main_arg1))) := first_inv (W0 m ρ c)
  have e2 : V1 m ρ c main_arg2 = m ((c.tc : Thread nD τ).loc main_arg2) := first_wl (W0 m ρ c)
  have e3 : V1 m ρ c main_arg3 = m ((c.tc : Thread nD τ).loc main_arg3) := first_wr (W0 m ρ c)
  have e23 : V1 m ρ c main_v23 = biasOf (m ((c.tc : Thread nD τ).loc main_arg4)) := first_bias (W0 m ρ c)
  show Cert.SageLayer.act (V1 m ρ c main_v22) (V1 m ρ c main_arg0) (V1 m ρ c main_v12) (V1 m ρ c main_arg2) (V1 m ρ c main_arg3) (V1 m ρ c main_v23) = _
  rw [e22, e0, e12, e2, e3, e23]
  rfl

/-- THE RESULT: what the last boundary holds at the result buffer is `output`. -/
theorem result_eq (c : Dev nD) : W4 m ρ c (Proc.devRef .tc main_v36) = output m c := by
  refine (W4_arr m ρ c 6).trans ((array_second (V3 m ρ) c).trans ?_)
  have w1 : W2 m ρ c (Proc.devRef .tc main_v1) = srcOf (m ((c.tc : Thread nD τ).loc main_arg1)) :=
    (W2_of_ne m ρ c main_v1 (by decide)).trans (first_src (W0 m ρ c))
  have w3 : W2 m ρ c (Proc.devRef .tc main_v3) = dstOf (m ((c.tc : Thread nD τ).loc main_arg1)) :=
    (W2_of_ne m ρ c main_v3 (by decide)).trans (first_dst (W0 m ρ c))
  have w12 : W2 m ρ c (Proc.devRef .tc main_v12) = invOf (dstOf (m ((c.tc : Thread nD τ).loc main_arg1))) :=
    ((W2_arr m ρ c 2).trans (((dat0 (V1 m ρ) c).arrAt_in 2 rfl _).trans (A_eq0 (V1 m ρ) c 2))).trans (first_inv (W0 m ρ c))
  have w5 : W2 m ρ c (Proc.devRef .tc main_arg5) = m ((c.tc : Thread nD τ).loc main_arg5) :=
    (W2_of_ne m ρ c main_arg5 (by decide)).trans (first_wl2 (W0 m ρ c))
  have w6 : W2 m ρ c (Proc.devRef .tc main_arg6) = m ((c.tc : Thread nD τ).loc main_arg6) :=
    (W2_of_ne m ρ c main_arg6 (by decide)).trans (first_wr2 (W0 m ρ c))
  have w7 : W2 m ρ c (Proc.devRef .tc main_arg7) = m ((c.tc : Thread nD τ).loc main_arg7) :=
    (W2_of_ne m ρ c main_arg7 (by decide)).trans (first_b2 (W0 m ρ c))
  have e34 : V3 m ρ c main_v34 = aggOf (hidden m c) (srcOf (m ((c.tc : Thread nD τ).loc main_arg1))) (dstOf (m ((c.tc : Thread nD τ).loc main_arg1))) := by
    refine (second_agg (W2 m ρ c)).trans ?_
    rw [first_leaves, w1, w3]
  have e24 : V3 m ρ c main_v24 = hidden m c := (second_x (W2 m ρ c)).trans (first_leaves m ρ c)
  have e12 : V3 m ρ c main_v12 = invOf (dstOf (m ((c.tc : Thread nD τ).loc main_arg1))) := (second_inv (W2 m ρ c)).trans w12
  have e5 : V3 m ρ c main_arg5 = m ((c.tc : Thread nD τ).loc main_arg5) := (second_wl (W2 m ρ c)).trans w5
  have e6 : V3 m ρ c main_arg6 = m ((c.tc : Thread nD τ).loc main_arg6) := (second_wr (W2 m ρ c)).trans w6
  have e35 : V3 m ρ c main_v35 = biasOf (m ((c.tc : Thread nD τ).loc main_arg7)) := by
    refine (second_bias (W2 m ρ c)).trans ?_
    rw [w7]
  show Cert.SageLayer.pre (V3 m ρ c main_v34) (V3 m ρ c main_v24) (V3 m ρ c main_v12) (V3 m ρ c main_arg5) (V3 m ρ c main_arg6) (V3 m ρ c main_v35) = _
  rw [e34, e24, e12, e5, e6, e35]
  rfl

/-- THE RUN, READ: the result buffer ends at `output`, the arguments unchanged. -/
theorem run : θ_run defs (onTc (τ := τ) (main (F := Ideal))) ⟨m, fun _ => 0, ρ⟩ (fun r => ∀ c : Dev nD,
      r.2.mem ((c.tc : Thread nD τ).loc main_v36) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_named m ρ)

end Value

end Cert.KernelIdeal.Whole

end
-- ==== Proof.MeanLaw.lean ====
/-
  The one algebraic law that joins the two programs. One side forms a neighbourhood mean as
  `sum * (1 / d)`, the other as `sum / d`, where `d = max(deg, 1)` and `deg` is a node's in-degree.
  On the extended reals division by a NONZERO `d` is multiplication by `d⁻¹`, and `1 / d = d⁻¹`, so
  the two agree for every `sum` (finite or not) as soon as `d ≠ 0`. And `max a 1 ≥ 1 > 0` whatever
  `a` is, so the divisor is never zero: no finiteness of any input is used.
-/
import Idealize.ShloMosaic.PureOps.Ideal
import Idealize.ShloMosaic.Lib.IdealHost

noncomputable section

namespace Cert.SageMean

open Idealize.ShloMosaic

/-- Multiplying by the reciprocal of a nonzero extended real is dividing by it. -/
theorem mul_recip_eq_div (s d : EReal) (hd : d ≠ 0) : s * Ideal.div 1 d = Ideal.div s d := by
  unfold Ideal.div
  rw [if_neg hd, if_neg hd, one_mul]

/-- A maximum with one is at least one, hence not zero. -/
theorem max_one_ne_zero (a : EReal) : max a 1 ≠ 0 :=
  ne_of_gt (lt_of_lt_of_le zero_lt_one (le_max_right a 1))

/-- The mean's two spellings agree: `s * (1 / max a 1) = s / max a 1`. -/
theorem mean_eq (s a : EReal) : s * Ideal.div 1 (max a 1) = Ideal.div s (max a 1) :=
  mul_recip_eq_div s _ (max_one_ne_zero a)

end Cert.SageMean

end
-- ==== Proof.RefLayer.lean ====
/-
  The reference, layer by layer, against the specification. Its first layer divides the neighbour sums by the clamped
  in-degree (broadcast along the features), contracts the quotient with the left weights, contracts the node features
  with the right weights, and adds the two products and the bias. Entry (p, q) is therefore

      (sum_k (S[p,k] / d[p]) * Wl[k,q]) + (sum_k x[p,k] * Wr[k,q]) + b[q],          d[p] = max(deg[p], 1),

  which is the specification's entry with the per-node factor `1 / d[p]`: `S[p,k] / d[p] = S[p,k] * (1 / d[p])` because
  `d[p] ≥ 1` is not zero (the one law of this certificate; no finiteness is used). The rectifier is a maximum with the
  zero array, and the second layer is the first layer's function again, of the rectified features, the same edges, and
  the second weights and bias.
-/
import proofs.«178680_j42150809043596_2_alg».proof.Proof.Gen.ReferenceIdeal.Read
import proofs.«178680_j42150809043596_2_alg».proof.Proof.LayerSpec
import proofs.«178680_j42150809043596_2_alg».proof.Proof.MeanLaw

noncomputable section

namespace Cert.ReferenceIdeal.Layer

open Cert.ReferenceIdeal Cert.ReferenceIdeal.Gen Cert.ReferenceIdeal.Read Idealize.ShloMosaic Idealize.ShloMosaic.ValueIdx

/-- The clamped in-degree of node p is the maximum of its in-degree with one. -/
theorem clamp_at (x1 : (⟨S2x1600000, .i32⟩ : BufTy).Contents (Elt Ideal)) (p : Fin 100000) :
    val_main_v19 (F := Ideal) x1 (ix1 p) = max (val_main_v17 (F := Ideal) x1 (ix1 p)) 1 := by
  rw [val_main_v19_apply, val_main_v18_apply, val_main_cst_3_apply]
  show max _ (Ideal.ofBits .f32 0x3F800000#32) = _
  rw [Ideal.ofBits_one_f32]

/-- THE FIRST LAYER before the rectifier is the specification's layer, with the per-node factor `1 / max(deg, 1)`. -/
theorem layer_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v28 (F := Ideal) x0 x1 x2 x3 x4
      = Cert.SageLayer.pre (val_main_v13 (F := Ideal) x0 x1) x0 (Cert.SageLayer.recipCol (val_main_v19 (F := Ideal) x1)) x2 x3
          (Cert.SageLayer.biasRow x4) := by
  funext i
  obtain ⟨p, q, rfl⟩ : ∃ (p : Fin 100000) (q : Fin 128), i = ix2 p q := ⟨i 0, i 1, eq_ix2 i⟩
  rw [val_main_v28_apply, val_main_v25_apply, val_main_v23_apply, val_main_v24_apply, val_main_v27_apply, val_main_v26_apply]
  show (∑ k : Fin 128, _ * _) + (∑ k : Fin 128, _ * _) + _ = Cert.SageLayer.preAt _ _ _ _ _ _ p q
  unfold Cert.SageLayer.preAt
  refine congrArg₂ (· + ·) (congrArg₂ (· + ·) (Finset.sum_congr rfl fun k _ => ?_) (Finset.sum_congr rfl fun k _ => ?_)) ?_
  · have hl : lidx_main_v23 (ix2 p q) k = ix2 p k := funext fun a => Fin.ext (by match a with | ⟨0, _⟩ => rfl | ⟨1, _⟩ => rfl)
    have hr : ridx_main_v23 (ix2 p q) k = ix2 k q := funext fun a => Fin.ext (by match a with | ⟨0, _⟩ => rfl | ⟨1, _⟩ => rfl)
    have hd : idx_main_v20 (idx_main_v21 (ix2 p k)) = ix1 p := funext fun a => Fin.ext (by match a with | ⟨0, _⟩ => rfl)
    rw [hl, hr, val_main_v22_apply, val_main_v21_apply, val_main_v20_apply, hd]
    show Ideal.div (val_main_v13 (F := Ideal) x0 x1 (ix2 p k)) (val_main_v19 (F := Ideal) x1 (ix1 p)) * _
      = (val_main_v13 (F := Ideal) x0 x1 (ix2 p k) * Ideal.div 1 (val_main_v19 (F := Ideal) x1 (ix1 p))) * _
    rw [clamp_at, Cert.SageMean.mean_eq]
  · have hl : lidx_main_v24 (ix2 p q) k = ix2 p k := funext fun a => Fin.ext (by match a with | ⟨0, _⟩ => rfl | ⟨1, _⟩ => rfl)
    have hr : ridx_main_v24 (ix2 p q) k = ix2 k q := funext fun a => Fin.ext (by match a with | ⟨0, _⟩ => rfl | ⟨1, _⟩ => rfl)
    rw [hl, hr]
  · exact congrArg x4 (funext fun a => Fin.ext (by match a with | ⟨0, _⟩ => rfl))

/-- THE RECTIFIED FIRST LAYER is the specification's rectified layer. -/
theorem rect_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v29 (F := Ideal) x0 x1 x2 x3 x4
      = Cert.SageLayer.act (val_main_v13 (F := Ideal) x0 x1) x0 (Cert.SageLayer.recipCol (val_main_v19 (F := Ideal) x1)) x2 x3
          (Cert.SageLayer.biasRow x4) := by
  funext i
  rw [val_main_v29_apply, val_main_call0_v0_apply, val_main_call0_cst_apply, layer_eq]
  show max (Cert.SageLayer.pre _ _ _ _ _ _ i) (Ideal.ofBits .f32 0x00000000#32) = _
  rw [Ideal.ofBits_zero_f32]
  rfl

/-- THE SECOND LAYER is the first layer's function of the rectified features, the same edges, the second weights and bias:
    the two stretches of the program are the same operations. -/
theorem second_is_first (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v54 (F := Ideal) x0 x1 x2 x3 x4 x5 x6 x7
      = val_main_v28 (F := Ideal) (val_main_v29 (F := Ideal) x0 x1 x2 x3 x4) x1 x5 x6 x7 := rfl

end Cert.ReferenceIdeal.Layer

end
-- ==== Proof.Bridge.lean ====
/-
  The two programs compute one function. The kernel program's host stretches and the reference's stages spell the same
  operations — the sources and destinations out of the edge list, the degree as a scatter-add of ones, its clamp at one,
  the aggregation as a gather followed by a scatter-add — so those terms are equal as written. Two pieces differ in
  spelling only: the kernel program reshapes `1 / max(deg, 1)` into a column and the bias into a row where the
  specification names them index by index (`col_eq`, `row_eq`). With these the kernel program's result, the
  unrectified layer of the rectified layer of the arguments, is the reference's last stage.
-/
import proofs.«178680_j42150809043596_2_alg».proof.Proof.HostStretch
import proofs.«178680_j42150809043596_2_alg».proof.Proof.KernelRun
import proofs.«178680_j42150809043596_2_alg».proof.Proof.RefLayer
import Idealize.ShloMosaic.Lib.ValueLayout

noncomputable section

namespace Cert.Bridge

open Idealize.ShloMosaic Idealize.ShloMosaic.ValueIdx Idealize.ShloMosaic.TcCoe Idealize.SL.Sem
open Cert.KernelIdeal.Stretch Cert.ReferenceIdeal.Read

/-- A vector cast to a one-column matrix reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The neighbour sums: the same gather and scatter-add in both programs. -/
theorem agg_eq (x : FVec Ideal Cert.KernelIdeal.S100000x128 .f32) (e : (⟨Cert.KernelIdeal.S2x1600000, .i32⟩ : BufTy).Contents (Elt Ideal)) :
    aggOf x (srcOf e) (dstOf e) = val_main_v13 (F := Ideal) x e := rfl

/-- The clamped degree: the same scatter-add of ones and maximum with one in both programs. -/
theorem clamp_eq (e : (⟨Cert.KernelIdeal.S2x1600000, .i32⟩ : BufTy).Contents (Elt Ideal)) :
    clampOf (dstOf e) = val_main_v19 (F := Ideal) e := rfl

/-- The constant-one vector is one everywhere. -/
theorem ones_eq : ones = fun _ => (1 : EReal) := funext fun i => by
  unfold ones
  rw [broadcastInDim_apply _ _ _ i ix0 (fun a => a.elim0), constant_apply]
  exact Ideal.ofBits_one_f32

/-- For ANY per-node vector `d`, the quotient `1 / d` reshaped into a column is the column of reciprocals of `d`. -/
theorem col_of (d : FVec Ideal Cert.KernelIdeal.S100000 .f32) (h : Cert.KernelIdeal.S100000.ShapeCasts Cert.KernelIdeal.S100000x1) :
    shapeCast Cert.KernelIdeal.S100000x1 (Host.divf (F := Ideal) (fun _ => (1 : EReal)) d) h = Cert.SageLayer.recipCol d := by
  funext i
  obtain ⟨p, u, rfl⟩ : ∃ (p : Fin 100000) (u : Fin 1), i = ix2 p u := ⟨i 0, i 1, eq_ix2 i⟩
  rw [shapeCast_a_a1_apply]
  rfl

/-- The reshaped quotient `1 / max(deg, 1)` is the column of reciprocals of the clamped degree. -/
theorem col_eq (dst : (⟨Cert.KernelIdeal.S1600000, .i32⟩ : BufTy).Contents (Elt Ideal)) :
    invOf dst = Cert.SageLayer.recipCol (clampOf dst) := by
  unfold invOf
  rw [ones_eq]
  exact col_of (clampOf dst) _

/-- The reshaped bias is the bias as a row. -/
theorem row_eq (b : FVec Ideal Cert.KernelIdeal.S128 .f32) : biasOf b = Cert.SageLayer.biasRow b := by
  funext i
  obtain ⟨u, q, rfl⟩ : ∃ (u : Fin 1) (q : Fin 128), i = ix2 u q := ⟨i 0, i 1, eq_ix2 i⟩
  unfold biasOf
  rw [shapeCast_a_1a_apply]
  rfl

variable (m : (ℓ : Loc Cert.KernelIdeal.nD Cert.KernelIdeal.τ Cert.KernelIdeal.sig) → Buf (Elt Ideal) ℓ)

open Cert.KernelIdeal in
/-- The kernel program's hidden features are the reference's rectified first layer. -/
theorem hidden_eq (c : Dev nD) :
    Cert.KernelIdeal.Whole.hidden m c
      = val_main_v29 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Cert.KernelIdeal.Whole.hidden
  rw [agg_eq, col_eq, clamp_eq, row_eq, Cert.ReferenceIdeal.Layer.rect_eq]

open Cert.KernelIdeal in
/-- THE KERNEL PROGRAM'S RESULT IS THE REFERENCE'S: both are the second layer of the rectified first layer. -/
theorem output_eq (c : Dev nD) :
    Cert.KernelIdeal.Whole.output m c
      = val_main_v54 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.KernelIdeal.Whole.output
  rw [hidden_eq, agg_eq, col_eq, clamp_eq, row_eq, Cert.ReferenceIdeal.Layer.second_is_first, Cert.ReferenceIdeal.Layer.layer_eq]

end Cert.Bridge

end
-- ==== Proof.lean ====
/-
  Two layers of mean aggregation over a graph of 100000 nodes and 1600000 edges: the kernel program against its reference,
  equal result arrays on the extended reals.

  Each layer takes node features `x`, sums over every node's incoming edges the source rows (`S`, a gather followed by a
  scatter-add), and returns `(S / d) Wl + x Wr + b` with `d = max(deg, 1)` the clamped in-degree; the first layer is then
  rectified and fed to the second, over the same edges. The reference computes exactly that on the host. The kernel
  program computes `S`, the degree and the column `1 / d` on the host and runs, per layer, one kernel over 20 row tiles of
  5000 nodes that forms `((S * (1/d)) Wl + x Wr) + b` (and the maximum with zero in the first layer), its matrix products
  taken in a narrower float format.

  On the extended reals a change of float format is the identity and a matrix product is the plain sum over the
  contracted axis, so tiling the rows changes nothing (each output row depends on that row of the inputs only). What is
  left is one law: `s * (1 / d) = s / d`. It holds for every extended real `s` as soon as `d ≠ 0`, and `d = max(deg, 1) ≥ 1`.
  No input needs to be finite for it, so the precondition is never opened.

  The modules: `MeanLaw` (the law), `LayerSpec` (a layer, entry by entry), `KernelBlock` (what one grid point stores, at
  an entry), `KernelArray` (from the 20 blocks to the array, per kernel), `HostStretch` (the host operations around the
  kernels as named functions), `KernelRun` (the kernel program's run with its result as one function of the arguments),
  `RefLayer` (the reference's stages against the specification), `Bridge` (the two results are one function).
-/
import proofs.«178680_j42150809043596_2_alg».proof.Defs
import proofs.«178680_j42150809043596_2_alg».proof.Proof.Gen.Kernel
import proofs.«178680_j42150809043596_2_alg».proof.Proof.Gen.Kernel.Skeleton
import proofs.«178680_j42150809043596_2_alg».proof.Proof.Gen.Kernel.Launch
import proofs.«178680_j42150809043596_2_alg».proof.Proof.Gen.Kernel.Points
import proofs.«178680_j42150809043596_2_alg».proof.Proof.Gen.Kernel.Frame
import proofs.«178680_j42150809043596_2_alg».proof.Proof.Gen.KernelIdeal
import proofs.«178680_j42150809043596_2_alg».proof.Proof.Gen.KernelIdeal.Skeleton
import proofs.«178680_j42150809043596_2_alg».proof.Proof.Gen.KernelIdeal.Launch
import proofs.«178680_j42150809043596_2_alg».proof.Proof.Gen.KernelIdeal.Points
import proofs.«178680_j42150809043596_2_alg».proof.Proof.Gen.KernelIdeal.Frame
import proofs.«178680_j42150809043596_2_alg».proof.Proof.Gen.ReferenceIdeal
import proofs.«178680_j42150809043596_2_alg».proof.Proof.Gen.ReferenceIdeal.Run
import proofs.«178680_j42150809043596_2_alg».proof.Proof.Gen.ReferenceIdeal.Read
import proofs.«178680_j42150809043596_2_alg».proof.Proof.Gen.Pre_finite_inputs
import proofs.«178680_j42150809043596_2_alg».proof.Proof.KernelRun
import proofs.«178680_j42150809043596_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as they were. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel program was rewritten to read it on the extended reals. -/
theorem preserves : Cert.preserves_Kernel_KernelIdeal := trivial

/-- From memories that agree on the arguments the two programs end with the same result array: the second layer of the
    rectified first layer, the kernel program's `s * (1 / d)` being the reference's `s / d` because `d = max(deg, 1)` is
    never zero. -/
theorem algebraic : Cert.algebraic_KernelIdeal_ReferenceIdeal := by
  intro m ρ m' ρ' _ hagree
  refine ⟨fun c => Cert.KernelIdeal.Whole.output m c, Cert.KernelIdeal.Whole.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v54_eq, (hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.Bridge.output_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
